-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S1x11008 : Shape := ⟨2, ![1, 11008]⟩
abbrev S8192x11008 : Shape := ⟨2, ![8192, 11008]⟩
abbrev S2048x1024 : Shape := ⟨2, ![2048, 1024]⟩
abbrev S1024x1024 : Shape := ⟨2, ![1024, 1024]⟩
abbrev S1x1024 : Shape := ⟨2, ![1, 1024]⟩
abbrev S4x2048x11008 : Shape := ⟨3, ![4, 2048, 11008]⟩

abbrev nBuf : Space → Nat
  | .hbm => 9
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S8192x4096, .f32⟩
  | .hbm, ⟨4, _⟩ => ⟨S8192x4096, .bf16⟩
  | .hbm, ⟨5, _⟩ => ⟨S11008x4096, .bf16⟩
  | .hbm, ⟨6, _⟩ => ⟨S1x11008, .f32⟩
  | .hbm, ⟨7, _⟩ => ⟨S8192x11008, .f32⟩
  | .hbm, ⟨8, _⟩ => ⟨S4x2048x11008, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 11, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S11008_S1x11008 : S11008.ShapeCasts S1x11008
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x11008_S4x2048x11008 : S8192x11008.ShapeCasts S4x2048x11008
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S11008x4096.size a
  hwx0_1 : ∀ i : grid0.Coords, EltTy.bits .bf16 = 32 ∨ (Rect.unit (s := S11008x4096) (fun a => cc0_transform_1 i a * S1024x1024.size a) (fun a => (Pipeline.Clip.of (cc0_transform_1 i a) (S1024x1024.size a) (S11008x4096.size a)).extent (S1024x1024.size a)) fun a => Pipeline.Clip.inb (Pipeline.Clip.ok_of (hstart0_1 i a))).WholeWords (EltTy.packing .bf16)
  hwxs0_1 : ∀ i : grid0.Coords, EltTy.bits .bf16 = 32 ∨ (Rect.unit (s := S1024x1024) (fun _ => 0) (fun a => (Pipeline.Clip.of (cc0_transform_1 i a) (S1024x1024.size a) (S11008x4096.size a)).extent (S1024x1024.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1024.size a < S1x11008.size a
  hwx0_2 : ∀ i : grid0.Coords, EltTy.bits .f32 = 32 ∨ (Rect.unit (s := S1x11008) (fun a => cc0_transform_2 i a * S1x1024.size a) (fun a => (Pipeline.Clip.of (cc0_transform_2 i a) (S1x1024.size a) (S1x11008.size a)).extent (S1x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x1024) (fun _ => 0) (fun a => (Pipeline.Clip.of (cc0_transform_2 i a) (S1x1024.size a) (S1x11008.size a)).extent (S1x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x1024.size a < S8192x11008.size a
  hwx0_3 : ∀ i : grid0.Coords, EltTy.bits .f32 = 32 ∨ (Rect.unit (s := S8192x11008) (fun a => cc0_transform_3 i a * S2048x1024.size a) (fun a => (Pipeline.Clip.of (cc0_transform_3 i a) (S2048x1024.size a) (S8192x11008.size a)).extent (S2048x1024.size a)) fun a => Pipeline.Clip.inb (Pipeline.Clip.ok_of (hstart0_3 i a))).WholeWords (EltTy.packing .f32)
  hwxs0_3 : ∀ i : grid0.Coords, EltTy.bits .f32 = 32 ∨ (Rect.unit (s := S2048x1024) (fun _ => 0) (fun a => (Pipeline.Clip.of (cc0_transform_3 i a) (S2048x1024.size a) (S8192x11008.size a)).extent (S2048x1024.size a)) fun a => (Nat.zero_add _).trans_le (Pipeline.Clip.extent_le (Pipeline.Clip.ok_of (hstart0_3 i a)))).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v2) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S1x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v4) S2048x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S4x2048x11008 : Shape := ⟨3, ![4, 2048, 11008]⟩
abbrev S1x1x11008 : Shape := ⟨3, ![1, 1, 11008]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .f32⟩
  | .hbm, ⟨4, _⟩ => ⟨S4x2048x11008, .f32⟩
  | .hbm, ⟨5, _⟩ => ⟨S1x1x11008, .f32⟩
  | .hbm, ⟨6, _⟩ => ⟨S4x2048x11008, .f32⟩
  | .hbm, ⟨7, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.KBody.lean ====
/-
  The kernel body at one grid point, as a function of what its five buffers hold.

  The body keeps a running sum in a scratch buffer. At a point whose reduction coordinate is zero it first clears the
  running sum; at every point it adds the product of the activation block with the transposed weight block; at a point
  whose reduction coordinate is the last one it also writes the running sum, scaled column by column, into the result
  block. So with `S` the running sum found, `X0`, `X1`, `X2` the activation, weight and scale blocks:
    first point of a reduction :  running sum  := 0 + X0 · X1ᵀ
    middle points              :  running sum  := S + X0 · X1ᵀ
    last point                 :  running sum  := S + X0 · X1ᵀ,  result := running sum ⊙ X2 (broadcast over rows)
  and the three input blocks are left as found. The statements hold at every float instance and for arbitrary contents.
-/
import proofs.«163397_j63445256896863_1_alg».proof.Proof.Gen.Kernel.Frame
import proofs.«163397_j63445256896863_1_alg».proof.Proof.Gen.Kernel.Skeleton
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is zero: the running sum is cleared first. -/
abbrev condFirst (i : grid0.Coords) : Prop :=
  (Scalar.cmpi .ne (Scalar.extui (Scalar.cmpi .eq (BitVec.ofNat 32 (i 2).val) 0#32)) 0#32) = 1#1
/-- The reduction coordinate is the last one: the scaled running sum is written to the result block. -/
abbrev condLast (i : grid0.Coords) : Prop := k0_cond2 i = 1#1

/-- The reduction coordinate is zero exactly at the points ≡ 0 (mod 4), -/
theorem condFirst_iff : ∀ t : Fin cfg0.N, condFirst (grid0.coords t) ↔ t.val % 4 = 0 :=
  (by decide +kernel : ∀ t : Fin grid0.N, condFirst (grid0.coords t) ↔ t.val % 4 = 0)
/-- and the last one exactly at the points ≡ 3 (mod 4). -/
theorem condLast_iff : ∀ t : Fin cfg0.N, condLast (grid0.coords t) ↔ t.val % 4 = 3 :=
  (by decide +kernel : ∀ t : Fin grid0.N, condLast (grid0.coords t) ↔ t.val % 4 = 3)

set_option maxHeartbeats 1000000 in
/-- A middle point of a reduction: the running sum gains the block product, everything else is left as found. -/
theorem body_mid (c : Dev nD) (E : Set ℕ) (i : grid0.Coords)
    (arg3 : Memref sig .tc .vmem S2048x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S2048x1024 .f32) (harg6 : arg6.IsWhole)
    (arg7 : Memref sig .tc .vmem S2048x1024 .f32) (harg7 : arg7.IsWhole)
    (hc1 : ¬condFirst i) (hc2 : ¬condLast i)
    (X0 : Vec F S2048x1024 .bf16) (X1 : Vec F S1024x1024 .bf16) (X2 : Vec F S1x1024 .f32)
    (X3 : Vec F S2048x1024 .f32) (S : Vec F S2048x1024 .f32) (K : PUnit → sProp 𝕄) :
    iprop(owns (c : Thread nD τ) arg3 fullShare X0 ∗ owns (c : Thread nD τ) arg4 fullShare X1
        ∗ owns (c : Thread nD τ) arg5 fullShare X2 ∗ owns (c : Thread nD τ) arg6 fullShare X3
        ∗ owns (c : Thread nD τ) arg7 fullShare S
        ∗ (iprop(owns (c : Thread nD τ) arg3 fullShare X0 ∗ owns (c : Thread nD τ) arg4 fullShare X1
            ∗ owns (c : Thread nD τ) arg5 fullShare X2 ∗ owns (c : Thread nD τ) arg6 fullShare (X3)
            ∗ owns (c : Thread nD τ) arg7 fullShare (k0_pay2 S X0 X1)) -∗ K ⟨⟩))
      ⊢ wp frame (wpE (defs₀ (F := F)) Variants.none c none) E
          (cc0__matmul_scale_kernel i arg3 harg3 arg4 harg4 arg5 harg5 arg6 harg6 arg7 harg7) K := by
  have hz : (![0, 0] : Fin 2 → Nat) = fun _ => 0 := funext fun a => by fin_cases a <;> rfl
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  · iexists _; isplitr
    swap; · iexact HS
    ipureintro
    rw [View.read_writes_eq_canon _ _ _ (fun y => ⟨_, List.mem_singleton_self _, View.mem_set_unit_zero hz inb_S2048x1024_S2048x1024_0_0 y⟩),
      View.canon_unit_zero hz]
    simp only [View.readAt_eq_ld, harg7.read_unread, harg3.read_unread, harg4.read_unread,
      View.ld_unit_zero (S := S2048x1024) hz, View.ld_unit_zero (S := S1024x1024) hz]

set_option maxHeartbeats 1000000 in
/-- The first point of a reduction: the running sum is the block product added to zero, whatever it held. -/
theorem body_first (c : Dev nD) (E : Set ℕ) (i : grid0.Coords)
    (arg3 : Memref sig .tc .vmem S2048x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S2048x1024 .f32) (harg6 : arg6.IsWhole)
    (arg7 : Memref sig .tc .vmem S2048x1024 .f32) (harg7 : arg7.IsWhole)
    (hc1 : condFirst i) (hc2 : ¬condLast i)
    (X0 : Vec F S2048x1024 .bf16) (X1 : Vec F S1024x1024 .bf16) (X2 : Vec F S1x1024 .f32)
    (X3 : Vec F S2048x1024 .f32) (S : Vec F S2048x1024 .f32) (K : PUnit → sProp 𝕄) :
    iprop(owns (c : Thread nD τ) arg3 fullShare X0 ∗ owns (c : Thread nD τ) arg4 fullShare X1
        ∗ owns (c : Thread nD τ) arg5 fullShare X2 ∗ owns (c : Thread nD τ) arg6 fullShare X3
        ∗ owns (c : Thread nD τ) arg7 fullShare S
        ∗ (iprop(owns (c : Thread nD τ) arg3 fullShare X0 ∗ owns (c : Thread nD τ) arg4 fullShare X1
            ∗ owns (c : Thread nD τ) arg5 fullShare X2 ∗ owns (c : Thread nD τ) arg6 fullShare (X3)
            ∗ owns (c : Thread nD τ) arg7 fullShare (k0_pay2 (k0_pay1 (F := F)) X0 X1)) -∗ K ⟨⟩))
      ⊢ wp frame (wpE (defs₀ (F := F)) Variants.none c none) E
          (cc0__matmul_scale_kernel i arg3 harg3 arg4 harg4 arg5 harg5 arg6 harg6 arg7 harg7) K := by
  have hz : (![0, 0] : Fin 2 → Nat) = fun _ => 0 := funext fun a => by fin_cases a <;> rfl
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  · iexists _; isplitr
    swap; · iexact HS
    ipureintro
    sl_unfold_words
    rw [View.read_writes_eq_canon _ _ _ (fun y => ⟨_, List.mem_cons_self, View.mem_set_unit_zero hz inb_S2048x1024_S2048x1024_0_0 y⟩),
      View.canon_cons_unit_zero hz, View.readCov_unit_zero _ hz]
    simp only [View.readAt_eq_ld, harg3.read_unread, harg4.read_unread,
      View.ld_unit_zero (S := S2048x1024) hz, View.ld_unit_zero (S := S1024x1024) hz]

set_option maxHeartbeats 1000000 in
/-- The last point of a reduction: the running sum gains the block product, and the result block is that sum with
    column `q` multiplied by the scale block's entry `q`. -/
theorem body_last (c : Dev nD) (E : Set ℕ) (i : grid0.Coords)
    (arg3 : Memref sig .tc .vmem S2048x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S2048x1024 .f32) (harg6 : arg6.IsWhole)
    (arg7 : Memref sig .tc .vmem S2048x1024 .f32) (harg7 : arg7.IsWhole)
    (hc1 : ¬condFirst i) (hc2 : condLast i)
    (X0 : Vec F S2048x1024 .bf16) (X1 : Vec F S1024x1024 .bf16) (X2 : Vec F S1x1024 .f32)
    (X3 : Vec F S2048x1024 .f32) (S : Vec F S2048x1024 .f32) (K : PUnit → sProp 𝕄) :
    iprop(owns (c : Thread nD τ) arg3 fullShare X0 ∗ owns (c : Thread nD τ) arg4 fullShare X1
        ∗ owns (c : Thread nD τ) arg5 fullShare X2 ∗ owns (c : Thread nD τ) arg6 fullShare X3
        ∗ owns (c : Thread nD τ) arg7 fullShare S
        ∗ (iprop(owns (c : Thread nD τ) arg3 fullShare X0 ∗ owns (c : Thread nD τ) arg4 fullShare X1
            ∗ owns (c : Thread nD τ) arg5 fullShare X2 ∗ owns (c : Thread nD τ) arg6 fullShare (k0_pay3 (k0_pay2 S X0 X1) X2)
            ∗ owns (c : Thread nD τ) arg7 fullShare (k0_pay2 S X0 X1)) -∗ K ⟨⟩))
      ⊢ wp frame (wpE (defs₀ (F := F)) Variants.none c none) E
          (cc0__matmul_scale_kernel i arg3 harg3 arg4 harg4 arg5 harg5 arg6 harg6 arg7 harg7) K := by
  have hz : (![0, 0] : Fin 2 → Nat) = fun _ => 0 := funext fun a => by fin_cases a <;> rfl
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_singleton_self _, View.mem_set_unit_zero hz inb_S2048x1024_S2048x1024_0_0 y⟩),
      View.canon_unit_zero hz, View.readCov_unit_zero _ hz]
    simp only [View.readAt_eq_ld, harg7.read_unread, harg3.read_unread, harg4.read_unread, harg5.read_unread,
      View.ld_unit_zero (S := S2048x1024) hz, View.ld_unit_zero (S := S1024x1024) hz, View.ld_unit_zero (S := S1x1024) hz]
  · iexists _; isplitr
    swap; · iexact HS
    ipureintro
    sl_unfold_words
    rw [View.read_writes_eq_canon _ _ _ (fun y => ⟨_, List.mem_singleton_self _, View.mem_set_unit_zero hz inb_S2048x1024_S2048x1024_0_0 y⟩),
      View.canon_unit_zero hz]
    simp only [View.readAt_eq_ld, harg7.read_unread, harg3.read_unread, harg4.read_unread,
      View.ld_unit_zero (S := S2048x1024) hz, View.ld_unit_zero (S := S1024x1024) hz]

end Cert.Kernel.Hand

end
-- ==== Proof.KFrame.lean ====
/-
  The frame of the word-level kernel: every execution ends, nothing faults, and the three argument arrays are left
  as they were.

  Nothing of what the kernel computes is needed for this. At each grid point the body is handed its four staging
  blocks and the scratch at arbitrary contents and hands them back at some contents (the three cases of the body:
  first, middle and last point of a reduction, decided by the point's residue modulo four). The argument arrays are
  read only by the host operations before the region and are no window's array, so they end as launched; the one
  host operation after the region writes only the final result.
-/
import proofs.«163397_j63445256896863_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window's staging contents are named: the frame claim reads none of them. -/
def forgetAll : Fin 4 → Bool := fun _ => true

/-- The scratch buffer that carries the running sum, as a whole memref. -/
abbrev scM : Memref sig .tc .vmem S2048x1024 .f32 := Memref.whole cc0_scratch0

/-- The proof data of the frame: the arrays as the region finds them, no staging contents named, the scratch at
    anything before and after every point. -/
def datsF (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The region's invariant: the scratch at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- What the body is called with at point `t`: the invariant, nothing owed, the four staging blocks at anything. -/
def framePre (c : Dev nD) (t : Fin cfg0.N) : sProp 𝕄 :=
  iprop((datsF m 0 c).Φ t.castSucc ∗ (datsF m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

/-- What it returns: the same. -/
def framePost (c : Dev nD) (t : Fin cfg0.N) : sProp 𝕄 :=
  iprop((datsF m 0 c).Φ t.succ ∗ (datsF m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X))

set_option maxHeartbeats 1600000 in
/-- The body at any point, by the point's residue modulo four. -/
theorem frame_body (c : Dev nD) (t : Fin cfg0.N) :
    framePre m c t ⊢ wp frame (wpE (defs₀ (F := F)) Variants.none c none) Set.univ (bodyAt0 t) (fun _ => framePost m c t) := by
  unfold framePre framePost bodyAt0
  rw [show (datsF m 0 c).Φ t.succ = (datsF m 0 c).Φ t.castSucc from rfl,
    show (datsF m 0 c).owesAt () t.succ = (datsF m 0 c).owesAt () t.castSucc from rfl,
    show (datsF m 0 c).Φ t.castSucc = Pipeline.ΦA spec0 c from rfl, PhiA_eq]
  have hN : t.val < 176 := lt_of_lt_of_eq t.isLt (show cfg0.N = 176 from N_0)
  iintro ⟨⟨⟨%s, HS⟩, Hg⟩, Ho, ⟨%x0, H0⟩, ⟨%x1, H1⟩, ⟨%x2, H2⟩, ⟨%x3, H3⟩⟩
  by_cases h0 : t.val % 4 = 0
  · iapply (body_first (F := F) c Set.univ (grid0.coords t) _ _ _ _ _ _ _ _ scM (Memref.isWhole_whole _)
      ((condFirst_iff t).mpr h0) (fun h => by have := (condLast_iff t).mp h; omega) x0 x1 x2 x3 s _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; iexact HS
      iexact Hg
    isplitl [Ho]; · iexact Ho
    isplitl [H0]; · iexists _; iexact H0
    isplitl [H1]; · iexists _; iexact H1
    isplitl [H2]; · iexists _; iexact H2
    iexists _; iexact H3
  · by_cases h3 : t.val % 4 = 3
    · iapply (body_last (F := F) c Set.univ (grid0.coords t) _ _ _ _ _ _ _ _ scM (Memref.isWhole_whole _)
        (fun h => h0 ((condFirst_iff t).mp h)) ((condLast_iff t).mpr h3) x0 x1 x2 x3 s _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; iexact HS
        iexact Hg
      isplitl [Ho]; · iexact Ho
      isplitl [H0]; · iexists _; iexact H0
      isplitl [H1]; · iexists _; iexact H1
      isplitl [H2]; · iexists _; iexact H2
      iexists _; iexact H3
    · iapply (body_mid (F := F) c Set.univ (grid0.coords t) _ _ _ _ _ _ _ _ scM (Memref.isWhole_whole _)
        (fun h => h0 ((condFirst_iff t).mp h)) (fun h => h3 ((condLast_iff t).mp h)) x0 x1 x2 x3 s _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; iexact HS
        iexact Hg
      isplitl [Ho]; · iexact Ho
      isplitl [H0]; · iexists _; iexact H0
      isplitl [H1]; · iexists _; iexact H1
      isplitl [H2]; · iexists _; iexact H2
      iexists _; iexact H3

/-- The body obligation with every window's contents left unnamed. -/
theorem frame_obligation (c : Dev nD) :
    BodyObligation (datsF (F := F) m 0 c) (defs₀ (F := F)) Variants.none () Set.univ forgetAll := fun t => by
  rw [bigSep_W0, bigSep_W0]
  exact frame_body m c t

/-- The one host operation after the region writes the final result only. -/
theorem tail_writes : ∀ ops ∈ ([hostOps1] : List (List (HloOp τ sig (Elt F)))), ∀ op ∈ ops,
    ∀ b : Ref sig .tc, Proc.devRef .tc b ∈ op.writes → b ∈ ({main_v5} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  exact Finset.mem_singleton.mpr (Proc.devRef_injective _ hb)

set_option backward.isDefEq.respectTransparency.types false in
/-- Every weakly fair execution of the program terminates without a fault, every buffer that is neither a window's
    array nor the final result holding what it held when the region was entered. -/
theorem run_frame : θ_run defs (onTc (τ := τ) (main (F := F))) (s₀ m ρ)
    (Pipeline.RDat.FramePostR (cfgs 0) (fun c => (datsF m 0 c).toRForget forgetAll) {main_v5} (V m)) :=
  Pipeline.RDat.θ_run_frame_around_T cfgs (0 : Fin 1) launch0 defs₀ Variants.none
    (fun c => (datsF m 0 c).toRForget forgetAll) {main_v5} m ρ main
    (hbody := fun c => (frame_obligation m c).toRForget)
    (hshare := fun c => ((datsF m 0 c).toRForget forgetAll).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl)

/-- The frame claim: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide),
        Finset.notMem_singleton.mpr (by decide)⟩)).trans (V_main_arg0 m c),
     ((h c).2 main_arg1 (Finset.mem_sdiff.mpr ⟨Pipeline.mem_restRefs_of main_arg1 (by decide) (by decide),
        Finset.notMem_singleton.mpr (by decide)⟩)).trans (V_main_arg1 m c),
     ((h c).2 main_arg2 (Finset.mem_sdiff.mpr ⟨Pipeline.mem_restRefs_of main_arg2 (by decide) (by decide),
        Finset.notMem_singleton.mpr (by decide)⟩)).trans (V_main_arg2 m c)⟩) (run_frame m ρ)

end Cert.Kernel.Hand

end
-- ==== Proof.IBlocks.lean ====
/-
  The arrays the region finds, as total functions of natural-number coordinates, and each window's block read through them.

  The grid has 4 × 11 × 4 points, numbered row-major: point n has row-block n / 44, channel-block (n / 4) mod 11 and
  reduction step n mod 4. The activation window's block at a point covers rows 2048·(n/44) … and reduction indices
  1024·(n mod 4) …; the weight window's covers channels 1024·((n/4) mod 11) … and the same reduction indices; the scale
  and result windows' cover the same channels. The last channel block overhangs the 11008 channels: only its first 768
  channels are inside the arrays, and only those are moved by a transfer.
-/
import proofs.«163397_j63445256896863_1_alg».proof.Proof.Gen.KernelIdeal.Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The arrays over natural coordinates -/

/-- The activations as the region finds them, at (row, reduction index); zero outside the table. -/
def xN (c : Dev nD) (a b : ℕ) : EReal :=
  if h : a < 8192 ∧ b < 4096 then (V m c main_v1 : S8192x4096.Idx → EReal) (ix2 ⟨a, h.1⟩ ⟨b, h.2⟩) else 0
/-- The weights as the region finds them, at (channel, reduction index); zero outside the table. -/
def wN (c : Dev nD) (a b : ℕ) : EReal :=
  if h : a < 11008 ∧ b < 4096 then (V m c main_v2 : S11008x4096.Idx → EReal) (ix2 ⟨a, h.1⟩ ⟨b, h.2⟩) else 0
/-- The scales as the region finds them, at a channel; zero outside the row. -/
def sN (c : Dev nD) (o : ℕ) : EReal :=
  if h : o < 11008 then (V m c main_v3 : S1x11008.Idx → EReal) (ix2 (0 : Fin 1) ⟨o, h⟩) else 0

theorem xN_of_idx (c : Dev nD) (i : S8192x4096.Idx) : xN m c (i 0).val (i 1).val = (V m c main_v1 : S8192x4096.Idx → EReal) i := by
  unfold xN; rw [dif_pos ⟨(i 0).isLt, (i 1).isLt⟩]; exact congrArg _ (eq_ix2 i).symm
theorem wN_of_idx (c : Dev nD) (i : S11008x4096.Idx) : wN m c (i 0).val (i 1).val = (V m c main_v2 : S11008x4096.Idx → EReal) i := by
  unfold wN; rw [dif_pos ⟨(i 0).isLt, (i 1).isLt⟩]; exact congrArg _ (eq_ix2 i).symm
theorem sN_of_idx (c : Dev nD) (i : S1x11008.Idx) : sN m c (i 1).val = (V m c main_v3 : S1x11008.Idx → EReal) i := by
  unfold sN; rw [dif_pos (show (i 1).val < 11008 from (i 1).isLt)]
  refine congrArg _ ?_
  funext a; match a with
  | ⟨0, _⟩ => exact Fin.ext (by have h1 : (i 0).val < 1 := (i 0).isLt; show 0 = (i 0).val; omega)
  | ⟨1, _⟩ => rfl

/-! ## The index maps and the cuts, decided over the grid -/

theorem idx_facts : ∀ t : Fin cfg0.N,
    win0_0.index t (0 : Fin 2) = t.val / 44 ∧ win0_0.index t (1 : Fin 2) = t.val % 4
    ∧ win0_1.index t (0 : Fin 2) = t.val / 4 % 11 ∧ win0_1.index t (1 : Fin 2) = t.val % 4
    ∧ win0_2.index t (0 : Fin 2) = 0 ∧ win0_2.index t (1 : Fin 2) = t.val / 4 % 11
    ∧ win0_3.index t (0 : Fin 2) = t.val / 44 ∧ win0_3.index t (1 : Fin 2) = t.val / 4 % 11 :=
  (by decide +kernel : ∀ t : Fin grid0.N, _)

/-- The channels of the channel block at point n that lie inside the arrays: 768 in the last block, else all 1024. -/
abbrev chans (n : ℕ) : ℕ := if n / 4 % 11 = 10 then 768 else 1024

theorem xsize_facts : ∀ t : Fin cfg0.N,
    win0_1.xsize (grid0.coords t) (0 : Fin 2) = chans t.val ∧ win0_1.xsize (grid0.coords t) (1 : Fin 2) = 1024
    ∧ win0_2.xsize (grid0.coords t) (0 : Fin 2) = 1 ∧ win0_2.xsize (grid0.coords t) (1 : Fin 2) = chans t.val
    ∧ win0_3.xsize (grid0.coords t) (0 : Fin 2) = 2048 ∧ win0_3.xsize (grid0.coords t) (1 : Fin 2) = chans t.val :=
  (by decide +kernel : ∀ t : Fin grid0.N, _)

theorem chans_iff (n q : ℕ) (hq : q < 1024) : q < chans n ↔ 1024 * (n / 4 % 11) + q < 11008 := by
  unfold chans; split <;> omega

/-! ## The blocks read at an index -/

/-- The activation block at point t, at (r, k). -/
theorem blk0_read (c : Dev nD) (t : Fin cfg0.N) (r : Fin 2048) (k : Fin 1024) :
    iblk m c 0 t (ix2 r k) = xN m c (2048 * (t.val / 44) + r.val) (1024 * (t.val % 4) + k.val) := by
  obtain ⟨e0, e1, -⟩ := idx_facts t
  show (V m c main_v1 : S8192x4096.Idx → EReal) (((cfg0.win 0).blk t).view.emb (ix2 r k)) = _
  rw [← xN_of_idx]
  congr 1
  · show win0_0.index t (0 : Fin 2) * 2048 + 1 * r.val = _; omega
  · show win0_0.index t (1 : Fin 2) * 1024 + 1 * k.val = _; omega

/-- The weight block's part inside the array at point t, at an index of that part. -/
theorem blk1_read (c : Dev nD) (t : Fin cfg0.N) (j : ((cfg0.win 1).xblock (cfg0.grid.coords t)).Idx) :
    ((cfg0.win 1).blk t).view.read (Elt Ideal) (V m c (Pipeline.arrRef spec0 1)) j
      = wN m c (1024 * (t.val / 4 % 11) + (j 0).val) (1024 * (t.val % 4) + (j 1).val) := by
  obtain ⟨-, -, e2, e3, -⟩ := idx_facts t
  show (V m c main_v2 : S11008x4096.Idx → EReal) (((cfg0.win 1).blk t).view.emb j) = _
  rw [← wN_of_idx]
  congr 1
  · show win0_1.index t (0 : Fin 2) * 1024 + 1 * (j 0).val = _; omega
  · show win0_1.index t (1 : Fin 2) * 1024 + 1 * (j 1).val = _; omega

/-- The scale block's part inside the array at point t, at an index of that part. -/
theorem blk2_read (c : Dev nD) (t : Fin cfg0.N) (j : ((cfg0.win 2).xblock (cfg0.grid.coords t)).Idx) :
    ((cfg0.win 2).blk t).view.read (Elt Ideal) (V m c (Pipeline.arrRef spec0 2)) j
      = sN m c (1024 * (t.val / 4 % 11) + (j 1).val) := by
  obtain ⟨-, -, -, -, e4, e5, -⟩ := idx_facts t
  show (V m c main_v3 : S1x11008.Idx → EReal) (((cfg0.win 2).blk t).view.emb j) = _
  rw [← sN_of_idx]
  congr 1
  show win0_2.index t (1 : Fin 2) * 1024 + 1 * (j 1).val = _; omega

end Cert.KernelIdeal.Hand

end
-- ==== Proof.LibMatmulT.lean ====
/-
  A matrix product into a zero accumulator whose right operand is stored row per output column (both operands contracted
  on their second axis: out = L · Rᵀ), read at an index as a plain sum of products over the contracted axis.

  For an n-by-K left operand and an M-by-K right operand, the entry at (p, q) is Σₖ L(p, k) · R(q, k). The four facts about
  the dimension numbers that say which coordinate of each operand index comes from the output index and which from the
  contraction index are taken as hypotheses: each printed record proves them by unfolding.
-/
import Idealize.ShloMosaic.PureOps.Ideal.Laws
import Idealize.ShloMosaic.Lib.ValueIdx

noncomputable section

open scoped BigOperators

namespace Cert.Lib.MatmulT

open Idealize.ShloMosaic Idealize.ShloMosaic.ValueIdx

/-- A kernel's matrix product L · Rᵀ into the zero splat, at the ideal values, read at `(p, q)`: the sum over the
    contracted axis of the left operand's row `p` times the right operand's row `q`. -/
theorem matmul_zero_ix2_t {n K M : ℕ} {φ₁ φ₂ : FTy}
    (d : DotDims (⟨2, ![n, K]⟩ : Shape) (⟨2, ![M, K]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (j 1).val) (hr1 : ∀ j c, (d.rhsIdx j c 1).val = (c ⟨0, by omega⟩).val)
    (lhs : FVec Ideal (⟨2, ![n, K]⟩ : Shape) φ₁) (rhs : FVec Ideal (⟨2, ![M, K]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lib.MatmulT

end
-- ==== Proof.IPay.lean ====
/-
  The body's three stored values read at an index, over the extended reals.

  The cleared running sum is zero everywhere. The updated running sum at (r, q) is the old one plus the sum over the
  block's 1024 reduction indices of activation (r, k) times weight (q, k): both operands are contracted on their second
  axis. The result block at (r, q) is the running sum there times the scale row's entry q.
-/
import proofs.«163397_j63445256896863_1_alg».proof.Proof.Gen.KernelIdeal.Skeleton
import proofs.«163397_j63445256896863_1_alg».proof.Proof.LibMatmulT
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The cleared running sum is zero at every index. -/
theorem pay1_apply (j : S2048x1024.Idx) : (k0_pay1 (F := Ideal)) j = 0 := by
  unfold k0_pay1
  rw [shapeCast_self]
  exact Ideal.ofBits_zero_f32

/-- In the body's matrix product the left operand's first coordinate is the result's first, -/
theorem dot_l0 (j : S2048x1024.Idx) (q : dot_S2048x1024_S1024x1024_S2048x1024_1_1_0_0_n_n.contr.Idx) :
    (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl
/-- the right operand's first coordinate is the result's second, -/
theorem dot_r0 (j : S2048x1024.Idx) (q : dot_S2048x1024_S1024x1024_S2048x1024_1_1_0_0_n_n.contr.Idx) :
    (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl
/-- and both operands' second coordinate is the contracted index. -/
theorem dot_l1 (j : S2048x1024.Idx) (q : dot_S2048x1024_S1024x1024_S2048x1024_1_1_0_0_n_n.contr.Idx) :
    (dot_S2048x1024_S1024x1024_S2048x1024_1_1_0_0_n_n.lhsIdx j q 1).val = (q ⟨0, by decide⟩).val :=
  dot_S2048x1024_S1024x1024_S2048x1024_1_1_0_0_n_n.lhsIdx_val_of_single rfl j q
theorem dot_r1 (j : S2048x1024.Idx) (q : dot_S2048x1024_S1024x1024_S2048x1024_1_1_0_0_n_n.contr.Idx) :
    (dot_S2048x1024_S1024x1024_S2048x1024_1_1_0_0_n_n.rhsIdx j q 1).val = (q ⟨0, by decide⟩).val :=
  dot_S2048x1024_S1024x1024_S2048x1024_1_1_0_0_n_n.rhsIdx_val_of_single rfl j q

/-- The updated running sum at (r, q): the old one plus the block's partial dot product of activation row r with
    weight row q. -/
theorem pay2_apply (S : Vec Ideal S2048x1024 .f32) (X0 : Vec Ideal S2048x1024 .bf16) (X1 : Vec Ideal S1024x1024 .bf16)
    (r : Fin 2048) (q : Fin 1024) :
    k0_pay2 S X0 X1 (ix2 r q) = S (ix2 r q) + ∑ k : Fin 1024, X0 (ix2 r k) * X1 (ix2 q k) := by
  unfold k0_pay2
  rw [shapeCast_self, shapeCast_self, shapeCast_self, addf_apply]
  refine congrArg (S (ix2 r q) + ·) ?_
  exact Cert.Lib.MatmulT.matmul_zero_ix2_t dot_S2048x1024_S1024x1024_S2048x1024_1_1_0_0_n_n none rfl rfl
    dot_l0 dot_l1 dot_r0 dot_r1 X0 X1 r q

/-- The result block at (r, q): the running sum there times the scale row's entry q. -/
theorem pay3_apply (A : Vec Ideal S2048x1024 .f32) (X2 : Vec Ideal S1x1024 .f32) (r : Fin 2048) (q : Fin 1024) :
    k0_pay3 A X2 (ix2 r q) = A (ix2 r q) * X2 (ix2 (0 : Fin 1) q) := by
  unfold k0_pay3
  rw [shapeCast_self, mulf_apply]
  refine congrArg (A (ix2 r q) * ·) ?_
  exact broadcastTo_apply X2 _ (ix2 r q) (ix2 (0 : Fin 1) q) (fun a => by
    match a with
    | ⟨0, _⟩ => show (0 : ℕ) = if (1 : ℕ) = 1 then 0 else _; rw [if_pos rfl]
    | ⟨1, _⟩ => show q.val = if (1024 : ℕ) = 1 then 0 else q.val; rw [if_neg (by decide)])

end Cert.KernelIdeal.Hand

end
-- ==== Proof.LibBlockSum.lean ====
import Mathlib.Algebra.BigOperators.Fin
import Mathlib.Algebra.BigOperators.Group.Finset.Basic
import Mathlib.Logic.Equiv.Fin.Basic

/-!
# Sums taken block by block, and running totals

A sum over T·R entries is the sum over T blocks of the sums over the R entries of each block, entry r of block t being
entry R·t + r. A running total that starts at the first block's sum and adds one block's sum per step is, after
step n, the sum of the first n + 1 blocks' sums.
-/

open Finset

namespace Cert.LibBlockSum

variable {M : Type*} [AddCommMonoid M]

/-- A sum over T·R entries, taken block by block. -/
theorem sum_by_blocks (T R : ℕ) (f : Fin (T * R) → M) :
    ∑ i, f i = ∑ t : Fin T, ∑ r : Fin R, f (finProdFinEquiv (t, r)) := by
  rw [← Fintype.sum_prod_type']
  exact (Equiv.sum_comp finProdFinEquiv f).symm

/-- Entry r of block t is entry R·t + r. -/
theorem block_entry_val {T R : ℕ} (t : Fin T) (r : Fin R) : (finProdFinEquiv (t, r)).val = r.val + R * t.val := rfl

/-- The same with the entries numbered 0 … N − 1 for N = T·R: entry r of block t is entry R·t + r. -/
theorem sum_by_blocks_of_eq (T R N : ℕ) (hN : T * R = N) (f : Fin N → M) :
    ∑ i, f i = ∑ t : Fin T, ∑ r : Fin R, f ⟨R * t.val + r.val, by
      have h := (finProdFinEquiv (t, r)).isLt
      rw [show (finProdFinEquiv (t, r)).val = r.val + R * t.val from rfl] at h
      omega⟩ := by
  subst hN
  rw [sum_by_blocks T R f]
  refine Finset.sum_congr rfl fun t _ => Finset.sum_congr rfl fun r _ => congrArg f (Fin.ext ?_)
  exact Nat.add_comm _ _

/-- A running total after step n is the sum of the first n + 1 terms. -/
theorem running_total (s g : ℕ → M) (h0 : s 0 = g 0) (hs : ∀ n, s (n + 1) = s n + g (n + 1)) (n : ℕ) :
    s n = ∑ k ∈ range (n + 1), g k := by
  induction n with
  | zero => rw [h0, Finset.sum_range_one]
  | succ n ih => rw [hs, ih, Finset.sum_range_succ _ (n + 1)]

/-- The same, for a recurrence that is only known below a bound N. -/
theorem running_total_below (N : ℕ) (s g : ℕ → M) (h0 : s 0 = g 0) (hs : ∀ n, n + 1 < N → s (n + 1) = s n + g (n + 1))
    (n : ℕ) (hn : n < N) : s n = ∑ k ∈ range (n + 1), g k := by
  induction n with
  | zero => rw [h0, Finset.sum_range_one]
  | succ n ih => rw [hs n hn, ih (by omega), Finset.sum_range_succ _ (n + 1)]

end Cert.LibBlockSum
-- ==== Proof.ISpec.lean ====
/-
  The arithmetic the kernel performs, over arrays indexed by natural numbers.

  For an activation table `X` (row, reduction index), a weight table `W` (output channel, reduction index) and a scale
  vector, the kernel forms the dot product of activation row `a` with weight row `o` in four consecutive blocks of 1024
  reduction indices, adding one block's partial product per reduction step to a running sum that starts at zero, and
  finally multiplies by the channel's scale. Since addition of extended reals is associative and commutative, the running
  sum after the last step is the dot product over all 4096 reduction indices taken in one sum.
-/
import Idealize.ShloMosaic.PureOps.Ideal
import proofs.«163397_j63445256896863_1_alg».proof.Proof.LibBlockSum

noncomputable section

open Finset

namespace Cert.KernelIdeal.Spec

variable (X W : ℕ → ℕ → EReal)

/-- The partial dot product of activation row `a` with weight row `o` over reduction block `kb`. -/
def dotBlk (a o kb : ℕ) : EReal := ∑ kk ∈ range 1024, X a (1024 * kb + kk) * W o (1024 * kb + kk)

/-- The running sum after reduction step `K`: the partial products of blocks `0 … K`. -/
def partialDot (a o K : ℕ) : EReal := ∑ kb ∈ range (K + 1), dotBlk X W a o kb

/-- After the first step the running sum is the first block's product added to zero. -/
theorem partialDot_zero (a o : ℕ) : partialDot X W a o 0 = 0 + dotBlk X W a o 0 := by
  unfold partialDot; rw [Finset.sum_range_one, zero_add]

/-- Each later step adds its block's product. -/
theorem partialDot_succ (a o K : ℕ) : partialDot X W a o (K + 1) = partialDot X W a o K + dotBlk X W a o (K + 1) := by
  unfold partialDot; exact Finset.sum_range_succ _ _

/-- After the fourth step the running sum is the whole dot product, as one sum over the 4096 reduction indices. -/
theorem partialDot_three (a o : ℕ) : partialDot X W a o 3 = ∑ k : Fin 4096, X a k.val * W o k.val := by
  unfold partialDot dotBlk
  rw [Cert.LibBlockSum.sum_by_blocks_of_eq 4 1024 4096 rfl (fun k : Fin 4096 => X a k.val * W o k.val)]
  rw [Finset.sum_range]
  refine Finset.sum_congr rfl fun t _ => ?_
  rw [Finset.sum_range]

end Cert.KernelIdeal.Spec

end
-- ==== Proof.IStep.lean ====
/-
  One reduction step on the running sum, and the final scaling, as statements about block contents.

  The weight and scale blocks hold what the arrays hold only on the channels inside the arrays (the rest is whatever the
  transfer left); the running sum is therefore specified only on those channels. On them it is the partial dot
  product of blocks 0 … (n mod 4) after point n: the first point of a reduction gives 0 + block 0, each later point adds
  its block. Entry (r, q) of a block product depends only on activation row r and weight row q, so unspecified weight
  rows never reach a specified channel.
-/
import proofs.«163397_j63445256896863_1_alg».proof.Proof.IBlocks
import proofs.«163397_j63445256896863_1_alg».proof.Proof.IPay
import proofs.«163397_j63445256896863_1_alg».proof.Proof.ISpec

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.ValueIdx
open Idealize.SL Idealize.SL.Sem

variable (m : (ℓ : Loc nD τ sig) → Buf (Elt Ideal) ℓ)

/-- The running sum after point n, on the channels inside the array: blocks 0 … (n mod 4) of the dot product. -/
def AccOK (c : Dev nD) (n : ℕ) (acc : Vec Ideal S2048x1024 .f32) : Prop :=
  ∀ (r : Fin 2048) (q : Fin 1024), 1024 * (n / 4 % 11) + q.val < 11008 →
    acc (ix2 r q) = partialDot (xN m c) (wN m c) (2048 * (n / 44) + r.val) (1024 * (n / 4 % 11) + q.val) (n % 4)

/-- The activation block at point n. -/
def ActOK (c : Dev nD) (n : ℕ) (X0 : Vec Ideal S2048x1024 .bf16) : Prop :=
  ∀ (r : Fin 2048) (k : Fin 1024), X0 (ix2 r k) = xN m c (2048 * (n / 44) + r.val) (1024 * (n % 4) + k.val)

/-- The weight block at point n, on the channels inside the array. -/
def WgtOK (c : Dev nD) (n : ℕ) (X1 : Vec Ideal S1024x1024 .bf16) : Prop :=
  ∀ (q k : Fin 1024), 1024 * (n / 4 % 11) + q.val < 11008 →
    X1 (ix2 q k) = wN m c (1024 * (n / 4 % 11) + q.val) (1024 * (n % 4) + k.val)

/-- The scale block at point n, on the channels inside the array. -/
def SclOK (c : Dev nD) (n : ℕ) (X2 : Vec Ideal S1x1024 .f32) : Prop :=
  ∀ (q : Fin 1024), 1024 * (n / 4 % 11) + q.val < 11008 → X2 (ix2 (0 : Fin 1) q) = sN m c (1024 * (n / 4 % 11) + q.val)

/-- The block product at (r, q), q a channel inside the array, is the partial dot product of block (n mod 4). -/
theorem block_sum (c : Dev nD) (n : ℕ) (X0 : Vec Ideal S2048x1024 .bf16) (X1 : Vec Ideal S1024x1024 .bf16)
    (h0 : ActOK m c n X0) (h1 : WgtOK m c n X1) (r : Fin 2048) (q : Fin 1024) (hq : 1024 * (n / 4 % 11) + q.val < 11008) :
    ∑ k : Fin 1024, X0 (ix2 r k) * X1 (ix2 q k)
      = dotBlk (xN m c) (wN m c) (2048 * (n / 44) + r.val) (1024 * (n / 4 % 11) + q.val) (n % 4) := by
  unfold dotBlk; rw [Finset.sum_range]
  exact Finset.sum_congr rfl fun k _ => by rw [h0 r k, h1 q k hq]

/-- The first point of a reduction: zero plus block 0. -/
theorem acc_first (c : Dev nD) (n : ℕ) (hn : n % 4 = 0) (X0 : Vec Ideal S2048x1024 .bf16) (X1 : Vec Ideal S1024x1024 .bf16)
    (h0 : ActOK m c n X0) (h1 : WgtOK m c n X1) : AccOK m c n (k0_pay2 (k0_pay1 (F := Ideal)) X0 X1) := by
  intro r q hq
  rw [pay2_apply, pay1_apply, block_sum m c n X0 X1 h0 h1 r q hq, hn, partialDot_zero]

/-- A later point: the point before left blocks 0 … (n mod 4) − 1 for the same rows and channels; this one adds its own. -/
theorem acc_next (c : Dev nD) (n : ℕ) (hn : n % 4 ≠ 0) (S : Vec Ideal S2048x1024 .f32) (hS : AccOK m c (n - 1) S)
    (X0 : Vec Ideal S2048x1024 .bf16) (X1 : Vec Ideal S1024x1024 .bf16)
    (h0 : ActOK m c n X0) (h1 : WgtOK m c n X1) : AccOK m c n (k0_pay2 S X0 X1) := by
  intro r q hq
  have e1 : (n - 1) / 44 = n / 44 := by omega
  have e2 : (n - 1) / 4 % 11 = n / 4 % 11 := by omega
  obtain ⟨K, hK1, hK2⟩ : ∃ K, n % 4 = K + 1 ∧ (n - 1) % 4 = K := ⟨n % 4 - 1, by omega, by omega⟩
  have hprev := hS r q (by rw [e2]; exact hq)
  rw [e1, e2, hK2] at hprev
  rw [pay2_apply, hprev, block_sum m c n X0 X1 h0 h1 r q hq, hK1, partialDot_succ]

/-- The last point: the result block at (r, q), q a channel inside the array, is the whole dot product times the
    channel's scale. -/
theorem out_last (c : Dev nD) (n : ℕ) (hn : n % 4 = 3) (A : Vec Ideal S2048x1024 .f32) (hA : AccOK m c n A)
    (X2 : Vec Ideal S1x1024 .f32) (h2 : SclOK m c n X2) (r : Fin 2048) (q : Fin 1024) (hq : 1024 * (n / 4 % 11) + q.val < 11008) :
    k0_pay3 A X2 (ix2 r q)
      = partialDot (xN m c) (wN m c) (2048 * (n / 44) + r.val) (1024 * (n / 4 % 11) + q.val) 3 * sN m c (1024 * (n / 4 % 11) + q.val) := by
  rw [pay3_apply, hA r q hq, h2 q hq, hn]

end Cert.KernelIdeal.Hand

end
-- ==== Proof.IBody.lean ====
/-
  The kernel body at one grid point, as a function of what its five buffers hold.

  The body keeps a running sum in a scratch buffer. At a point whose reduction coordinate is zero it first clears the
  running sum; at every point it adds the product of the activation block with the transposed weight block; at a point
  whose reduction coordinate is the last one it also writes the running sum, scaled column by column, into the result
  block. So with `S` the running sum found, `X0`, `X1`, `X2` the activation, weight and scale blocks:
    first point of a reduction :  running sum  := 0 + X0 · X1ᵀ
    middle points              :  running sum  := S + X0 · X1ᵀ
    last point                 :  running sum  := S + X0 · X1ᵀ,  result := running sum ⊙ X2 (broadcast over rows)
  and the three input blocks are left as found. The statements hold at every float instance and for arbitrary contents.
-/
import proofs.«163397_j63445256896863_1_alg».proof.Proof.Gen.KernelIdeal.Frame
import proofs.«163397_j63445256896863_1_alg».proof.Proof.Gen.KernelIdeal.Skeleton
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is zero: the running sum is cleared first. -/
abbrev condFirst (i : grid0.Coords) : Prop :=
  (Scalar.cmpi .ne (Scalar.extui (Scalar.cmpi .eq (BitVec.ofNat 32 (i 2).val) 0#32)) 0#32) = 1#1
/-- The reduction coordinate is the last one: the scaled running sum is written to the result block. -/
abbrev condLast (i : grid0.Coords) : Prop := k0_cond2 i = 1#1

/-- The reduction coordinate is zero exactly at the points ≡ 0 (mod 4), -/
theorem condFirst_iff : ∀ t : Fin cfg0.N, condFirst (grid0.coords t) ↔ t.val % 4 = 0 :=
  (by decide +kernel : ∀ t : Fin grid0.N, condFirst (grid0.coords t) ↔ t.val % 4 = 0)
/-- and the last one exactly at the points ≡ 3 (mod 4). -/
theorem condLast_iff : ∀ t : Fin cfg0.N, condLast (grid0.coords t) ↔ t.val % 4 = 3 :=
  (by decide +kernel : ∀ t : Fin grid0.N, condLast (grid0.coords t) ↔ t.val % 4 = 3)

set_option maxHeartbeats 1000000 in
/-- A middle point of a reduction: the running sum gains the block product, everything else is left as found. -/
theorem body_mid (c : Dev nD) (E : Set ℕ) (i : grid0.Coords)
    (arg3 : Memref sig .tc .vmem S2048x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S2048x1024 .f32) (harg6 : arg6.IsWhole)
    (arg7 : Memref sig .tc .vmem S2048x1024 .f32) (harg7 : arg7.IsWhole)
    (hc1 : ¬condFirst i) (hc2 : ¬condLast i)
    (X0 : Vec F S2048x1024 .bf16) (X1 : Vec F S1024x1024 .bf16) (X2 : Vec F S1x1024 .f32)
    (X3 : Vec F S2048x1024 .f32) (S : Vec F S2048x1024 .f32) (K : PUnit → sProp 𝕄) :
    iprop(owns (c : Thread nD τ) arg3 fullShare X0 ∗ owns (c : Thread nD τ) arg4 fullShare X1
        ∗ owns (c : Thread nD τ) arg5 fullShare X2 ∗ owns (c : Thread nD τ) arg6 fullShare X3
        ∗ owns (c : Thread nD τ) arg7 fullShare S
        ∗ (iprop(owns (c : Thread nD τ) arg3 fullShare X0 ∗ owns (c : Thread nD τ) arg4 fullShare X1
            ∗ owns (c : Thread nD τ) arg5 fullShare X2 ∗ owns (c : Thread nD τ) arg6 fullShare (X3)
            ∗ owns (c : Thread nD τ) arg7 fullShare (k0_pay2 S X0 X1)) -∗ K ⟨⟩))
      ⊢ wp frame (wpE (defs₀ (F := F)) Variants.none c none) E
          (cc0__matmul_scale_kernel i arg3 harg3 arg4 harg4 arg5 harg5 arg6 harg6 arg7 harg7) K := by
  have hz : (![0, 0] : Fin 2 → Nat) = fun _ => 0 := funext fun a => by fin_cases a <;> rfl
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  · iexists _; isplitr
    swap; · iexact HS
    ipureintro
    rw [View.read_writes_eq_canon _ _ _ (fun y => ⟨_, List.mem_singleton_self _, View.mem_set_unit_zero hz inb_S2048x1024_S2048x1024_0_0 y⟩),
      View.canon_unit_zero hz]
    simp only [View.readAt_eq_ld, harg7.read_unread, harg3.read_unread, harg4.read_unread,
      View.ld_unit_zero (S := S2048x1024) hz, View.ld_unit_zero (S := S1024x1024) hz]

set_option maxHeartbeats 1000000 in
/-- The first point of a reduction: the running sum is the block product added to zero, whatever it held. -/
theorem body_first (c : Dev nD) (E : Set ℕ) (i : grid0.Coords)
    (arg3 : Memref sig .tc .vmem S2048x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S2048x1024 .f32) (harg6 : arg6.IsWhole)
    (arg7 : Memref sig .tc .vmem S2048x1024 .f32) (harg7 : arg7.IsWhole)
    (hc1 : condFirst i) (hc2 : ¬condLast i)
    (X0 : Vec F S2048x1024 .bf16) (X1 : Vec F S1024x1024 .bf16) (X2 : Vec F S1x1024 .f32)
    (X3 : Vec F S2048x1024 .f32) (S : Vec F S2048x1024 .f32) (K : PUnit → sProp 𝕄) :
    iprop(owns (c : Thread nD τ) arg3 fullShare X0 ∗ owns (c : Thread nD τ) arg4 fullShare X1
        ∗ owns (c : Thread nD τ) arg5 fullShare X2 ∗ owns (c : Thread nD τ) arg6 fullShare X3
        ∗ owns (c : Thread nD τ) arg7 fullShare S
        ∗ (iprop(owns (c : Thread nD τ) arg3 fullShare X0 ∗ owns (c : Thread nD τ) arg4 fullShare X1
            ∗ owns (c : Thread nD τ) arg5 fullShare X2 ∗ owns (c : Thread nD τ) arg6 fullShare (X3)
            ∗ owns (c : Thread nD τ) arg7 fullShare (k0_pay2 (k0_pay1 (F := F)) X0 X1)) -∗ K ⟨⟩))
      ⊢ wp frame (wpE (defs₀ (F := F)) Variants.none c none) E
          (cc0__matmul_scale_kernel i arg3 harg3 arg4 harg4 arg5 harg5 arg6 harg6 arg7 harg7) K := by
  have hz : (![0, 0] : Fin 2 → Nat) = fun _ => 0 := funext fun a => by fin_cases a <;> rfl
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  · iexists _; isplitr
    swap; · iexact HS
    ipureintro
    sl_unfold_words
    rw [View.read_writes_eq_canon _ _ _ (fun y => ⟨_, List.mem_cons_self, View.mem_set_unit_zero hz inb_S2048x1024_S2048x1024_0_0 y⟩),
      View.canon_cons_unit_zero hz, View.readCov_unit_zero _ hz]
    simp only [View.readAt_eq_ld, harg3.read_unread, harg4.read_unread,
      View.ld_unit_zero (S := S2048x1024) hz, View.ld_unit_zero (S := S1024x1024) hz]

set_option maxHeartbeats 1000000 in
/-- The last point of a reduction: the running sum gains the block product, and the result block is that sum with
    column `q` multiplied by the scale block's entry `q`. -/
theorem body_last (c : Dev nD) (E : Set ℕ) (i : grid0.Coords)
    (arg3 : Memref sig .tc .vmem S2048x1024 .bf16) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S2048x1024 .f32) (harg6 : arg6.IsWhole)
    (arg7 : Memref sig .tc .vmem S2048x1024 .f32) (harg7 : arg7.IsWhole)
    (hc1 : ¬condFirst i) (hc2 : condLast i)
    (X0 : Vec F S2048x1024 .bf16) (X1 : Vec F S1024x1024 .bf16) (X2 : Vec F S1x1024 .f32)
    (X3 : Vec F S2048x1024 .f32) (S : Vec F S2048x1024 .f32) (K : PUnit → sProp 𝕄) :
    iprop(owns (c : Thread nD τ) arg3 fullShare X0 ∗ owns (c : Thread nD τ) arg4 fullShare X1
        ∗ owns (c : Thread nD τ) arg5 fullShare X2 ∗ owns (c : Thread nD τ) arg6 fullShare X3
        ∗ owns (c : Thread nD τ) arg7 fullShare S
        ∗ (iprop(owns (c : Thread nD τ) arg3 fullShare X0 ∗ owns (c : Thread nD τ) arg4 fullShare X1
            ∗ owns (c : Thread nD τ) arg5 fullShare X2 ∗ owns (c : Thread nD τ) arg6 fullShare (k0_pay3 (k0_pay2 S X0 X1) X2)
            ∗ owns (c : Thread nD τ) arg7 fullShare (k0_pay2 S X0 X1)) -∗ K ⟨⟩))
      ⊢ wp frame (wpE (defs₀ (F := F)) Variants.none c none) E
          (cc0__matmul_scale_kernel i arg3 harg3 arg4 harg4 arg5 harg5 arg6 harg6 arg7 harg7) K := by
  have hz : (![0, 0] : Fin 2 → Nat) = fun _ => 0 := funext fun a => by fin_cases a <;> rfl
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_singleton_self _, View.mem_set_unit_zero hz inb_S2048x1024_S2048x1024_0_0 y⟩),
      View.canon_unit_zero hz, View.readCov_unit_zero _ hz]
    simp only [View.readAt_eq_ld, harg7.read_unread, harg3.read_unread, harg4.read_unread, harg5.read_unread,
      View.ld_unit_zero (S := S2048x1024) hz, View.ld_unit_zero (S := S1024x1024) hz, View.ld_unit_zero (S := S1x1024) hz]
  · iexists _; isplitr
    swap; · iexact HS
    ipureintro
    sl_unfold_words
    rw [View.read_writes_eq_canon _ _ _ (fun y => ⟨_, List.mem_singleton_self _, View.mem_set_unit_zero hz inb_S2048x1024_S2048x1024_0_0 y⟩),
      View.canon_unit_zero hz]
    simp only [View.readAt_eq_ld, harg7.read_unread, harg3.read_unread, harg4.read_unread,
      View.ld_unit_zero (S := S2048x1024) hz, View.ld_unit_zero (S := S1024x1024) hz]

end Cert.KernelIdeal.Hand

end
-- ==== Proof.IData.lean ====
/-
  The proof data of the idealized kernel's run, and the body's obligation at every grid point.

  After the body at point n the activation buffer holds its block; the weight and scale buffers hold the arrays' entries
  on the channels inside the arrays; at the last point of a reduction the result buffer holds, on those channels, the
  whole dot product times the channel's scale. Between points the scratch holds the running sum, specified on the same
  channels. The weight window is fetched at every point; the scale window only when the channel block changes, and in
  between its buffer keeps what it held; the result buffer is written only at the last point of a reduction and written
  back right after it.
-/
import proofs.«163397_j63445256896863_1_alg».proof.Proof.IStep
import proofs.«163397_j63445256896863_1_alg».proof.Proof.IBody

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the buffers hold after the body -/

/-- The weight block at point n, every entry read off the array (zero past the array's end). -/
def wgtBlk (c : Dev nD) (n : ℕ) : Vec Ideal S1024x1024 .bf16 :=
  fun j => wN m c (1024 * (n / 4 % 11) + (j 0).val) (1024 * (n % 4) + (j 1).val)
/-- The scale block at point n. -/
def sclBlk (c : Dev nD) (n : ℕ) : Vec Ideal S1x1024 .f32 :=
  fun j => sN m c (1024 * (n / 4 % 11) + (j 1).val)
/-- The result block the last point of a reduction leaves: the whole dot product times the channel's scale. -/
def outBlk (c : Dev nD) (n : ℕ) : Vec Ideal S2048x1024 .f32 :=
  fun j => partialDot (xN m c) (wN m c) (2048 * (n / 44) + (j 0).val) (1024 * (n / 4 % 11) + (j 1).val) 3
    * sN m c (1024 * (n / 4 % 11) + (j 1).val)

/-- The scratch buffer that carries the running sum. -/
abbrev scM : Memref sig .tc .vmem S2048x1024 .f32 := Memref.whole cc0_scratch0

/-- The region's invariant before position n: at the start the scratch at anything; after point n − 1 the scratch at a
    running sum that is right on the channels inside the array. -/
def PhiS (c : Dev nD) : ℕ → sProp 𝕄
  | 0 => Pipeline.ΦA spec0 c
  | n + 1 => iprop(iprop(∃ acc : Vec Ideal S2048x1024 .f32, ⌜AccOK m c n acc⌝ ∗ owns (c : Thread nD τ) scM fullShare acc) ∗ (∃ r, prngReg c r))

/-- The proof data on core c. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wgtBlk m c t.val
    | ⟨2, _⟩ => sclBlk m c t.val
    | ⟨3, _⟩ => outBlk m c t.val
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = wgtBlk m c t.val := by dsimp only [dats]
theorem after0_2 (c : Dev nD) (t : Fin cfg0.N) : (dats m 0 c).after 2 t = sclBlk m c t.val := by dsimp only [dats]
theorem after0_3 (c : Dev nD) (t : Fin cfg0.N) : (dats m 0 c).after 3 t = outBlk m c t.val := by dsimp only [dats]

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Whatever the position, the invariant holds the scratch at some contents. -/
theorem PhiS_some (c : Dev nD) (n : ℕ) :
    PhiS m c n ⊢ iprop(iprop((∃ d, owns (c : Thread nD τ) scM fullShare d)) ∗ (∃ r, prngReg c r)) := by
  cases n with
  | zero => rw [show PhiS m c 0 = Pipeline.ΦA spec0 c from rfl, PhiA_eq]
  | succ n =>
    rw [show PhiS m c (n + 1) = iprop(iprop(∃ acc : Vec Ideal S2048x1024 .f32, ⌜AccOK m c n acc⌝ ∗ owns (c : Thread nD τ) scM fullShare acc) ∗ (∃ r, prngReg c r)) from rfl]
    iintro ⟨⟨%acc, -, HS⟩, Hg⟩
    isplitl [HS]
    · iexists _; iexact HS
    iexact Hg

theorem PhiS_pos (c : Dev nD) (n : ℕ) (hn : n ≠ 0) :
    PhiS m c n = iprop(iprop(∃ acc : Vec Ideal S2048x1024 .f32, ⌜AccOK m c (n - 1) acc⌝ ∗ owns (c : Thread nD τ) scM fullShare acc) ∗ (∃ r, prngReg c r)) := by
  cases n with
  | zero => exact absurd rfl hn
  | succ n => rfl

/-! ## Where the windows are live, and when the result is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3_iff : ∀ t : Fin cfg0.N, cfg0.idle 3 (grid0.coords t) = true ↔ t.val % 4 ≠ 3 :=
  (by decide +kernel : ∀ t : Fin grid0.N, cfg0.idle 3 (grid0.coords t) = true ↔ t.val % 4 ≠ 3)

/-! ## What the body finds in the input buffers -/

/-- A moved index of a block, read after the moved part was replaced by that of `X`, reads `X`. -/
theorem fill_cut_of_moved {G : Pipeline.Grid} (w : Window sig G) {α : Type} (i : G.Coords) (d X : w.block.Idx → α)
    (j : w.block.Idx) (h : w.moved i j = true) : w.fill i d (w.cut i X) j = X j := by
  unfold Window.fill; rw [dif_pos h]

theorem before0 (c : Dev nD) (t : Fin cfg0.N) (d) : (dats m 0 c).before 0 t d = iblk m c 0 t :=
  before0_0_of m (dats m 0 c) (A_eq m c 0) (after0_0 m c) t d

theorem act_ok (c : Dev nD) (t : Fin cfg0.N) : ActOK m c t.val (iblk m c 0 t) := fun r k => blk0_read m c t r k

/-- Channel q of the block at point t is moved by the weight window's transfers when it is inside the array. -/
theorem moved1 (t : Fin cfg0.N) (q k : Fin 1024) (hq : 1024 * (t.val / 4 % 11) + q.val < 11008) :
    (cfg0.win 1).moved (cfg0.grid.coords t) (ix2 q k) = true :=
  ((cfg0.win 1).moved_iff _ _).mpr fun a => by
    obtain ⟨x0, x1, -⟩ := xsize_facts t
    match a with
    | ⟨0, _⟩ => show q.val < win0_1.xsize (grid0.coords t) (0 : Fin 2); rw [x0]; exact (chans_iff t.val q.val q.isLt).mpr hq
    | ⟨1, _⟩ => show k.val < win0_1.xsize (grid0.coords t) (1 : Fin 2); rw [x1]; exact k.isLt
theorem moved2 (t : Fin cfg0.N) (q : Fin 1024) (hq : 1024 * (t.val / 4 % 11) + q.val < 11008) :
    (cfg0.win 2).moved (cfg0.grid.coords t) (ix2 (0 : Fin 1) q) = true :=
  ((cfg0.win 2).moved_iff _ _).mpr fun a => by
    obtain ⟨-, -, x2, x3, -⟩ := xsize_facts t
    match a with
    | ⟨0, _⟩ => show (0 : ℕ) < win0_2.xsize (grid0.coords t) (0 : Fin 2); rw [x2]; exact Nat.one_pos
    | ⟨1, _⟩ => show q.val < win0_2.xsize (grid0.coords t) (1 : Fin 2); rw [x3]; exact (chans_iff t.val q.val q.isLt).mpr hq

/-- The weight buffer, just fetched, holds the array's entries on the channels inside the array. -/
theorem before1_ok (c : Dev nD) (t : Fin cfg0.N) (d) : WgtOK m c t.val ((dats m 0 c).before 1 t d) := by
  rw [(dats m 0 c).before_fetched 1 t (fetch0_1 t)]
  intro q k hq
  unfold Dat.fetched Window.fill
  rw [dif_pos (moved1 t q k hq)]
  unfold Dat.blockOf
  rw [A_eq, blk1_read]
  rfl

/-- The scale buffer holds the array's entries on the channels inside the array: just fetched, or kept since the fetch
    at the start of the reduction (the channel block has not changed). -/
theorem before2_ok (c : Dev nD) (t : Fin cfg0.N) (d) : SclOK m c t.val ((dats m 0 c).before 2 t d) := by
  by_cases hf : t.val % 4 = 0
  · rw [(dats m 0 c).before_fetched 2 t ((fetch0_2 t).mpr hf)]
    intro q hq
    unfold Dat.fetched Window.fill
    rw [dif_pos (moved2 t q hq)]
    unfold Dat.blockOf
    rw [A_eq, blk2_read]
    rfl
  · have hf' : (cfg0.win 2).fetch t = false := Bool.eq_false_iff.mpr fun h => hf ((fetch0_2 t).mp h)
    rw [(dats m 0 c).before_unfetched_in 2 rfl t hf' (fun _ => rfl)]
    intro q hq
    have e2 : (t.val - 1) / 4 % 11 = t.val / 4 % 11 := by omega
    unfold Dat.kept
    rw [fill_cut_of_moved _ _ _ _ _ (moved2 ⟨t.val - 1, Nat.lt_of_le_of_lt (Nat.sub_le _ _) t.isLt⟩ q (by show 1024 * ((t.val - 1) / 4 % 11) + q.val < 11008; rw [e2]; exact hq)),
      after0_2]
    show sN m c (1024 * ((t.val - 1) / 4 % 11) + q.val) = _
    rw [e2]

/-- Contents that are right on the channels inside the array agree with the named block on the moved part. -/
theorem wgt_cut (c : Dev nD) (t : Fin cfg0.N) (X1 : Vec Ideal S1024x1024 .bf16) (h : WgtOK m c t.val X1) :
    (cfg0.win 1).cut (cfg0.grid.coords t) X1 = (cfg0.win 1).cut (cfg0.grid.coords t) ((dats m 0 c).after 1 t) := by
  rw [after0_1]
  funext j
  obtain ⟨x0, x1, -⟩ := xsize_facts t
  have hj0 : (j 0).val < chans t.val := (show (j 0).val < win0_1.xsize (grid0.coords t) (0 : Fin 2) from (j 0).isLt).trans_eq x0
  have hj1 : (j 1).val < 1024 := (show (j 1).val < win0_1.xsize (grid0.coords t) (1 : Fin 2) from (j 1).isLt).trans_eq x1
  have hq : (j 0).val < 1024 := lt_of_lt_of_le hj0 (by unfold chans; split <;> omega)
  exact (congrArg X1 (eq_ix2 _)).trans (h ⟨(j 0).val, hq⟩ ⟨(j 1).val, hj1⟩ ((chans_iff t.val _ hq).mp hj0))
theorem scl_cut (c : Dev nD) (t : Fin cfg0.N) (X2 : Vec Ideal S1x1024 .f32) (h : SclOK m c t.val X2) :
    (cfg0.win 2).cut (cfg0.grid.coords t) X2 = (cfg0.win 2).cut (cfg0.grid.coords t) ((dats m 0 c).after 2 t) := by
  rw [after0_2]
  funext j
  obtain ⟨-, -, x2, x3, -⟩ := xsize_facts t
  have hj0 : (j 0).val < 1 := (show (j 0).val < win0_2.xsize (grid0.coords t) (0 : Fin 2) from (j 0).isLt).trans_eq x2
  have hj1 : (j 1).val < chans t.val := (show (j 1).val < win0_2.xsize (grid0.coords t) (1 : Fin 2) from (j 1).isLt).trans_eq x3
  have hq : (j 1).val < 1024 := lt_of_lt_of_le hj1 (by unfold chans; split <;> omega)
  refine (congrArg X2 ?_).trans (h ⟨(j 1).val, hq⟩ ((chans_iff t.val _ hq).mp hj1))
  funext a; match a with
  | ⟨0, _⟩ => exact Fin.ext (by show (j 0).val = 0; omega)
  | ⟨1, _⟩ => rfl
/-- At the last point of a reduction the result the body stores agrees with the named block on the moved part. -/
theorem out_cut (c : Dev nD) (t : Fin cfg0.N) (ht : t.val % 4 = 3) (A : Vec Ideal S2048x1024 .f32) (hA : AccOK m c t.val A)
    (X2 : Vec Ideal S1x1024 .f32) (h2 : SclOK m c t.val X2) :
    (cfg0.win 3).cut (cfg0.grid.coords t) (k0_pay3 A X2) = (cfg0.win 3).cut (cfg0.grid.coords t) ((dats m 0 c).after 3 t) := by
  rw [after0_3]
  funext j
  obtain ⟨-, -, -, -, x4, x5⟩ := xsize_facts t
  have hj0 : (j 0).val < 2048 := (show (j 0).val < win0_3.xsize (grid0.coords t) (0 : Fin 2) from (j 0).isLt).trans_eq x4
  have hj1 : (j 1).val < chans t.val := (show (j 1).val < win0_3.xsize (grid0.coords t) (1 : Fin 2) from (j 1).isLt).trans_eq x5
  have hq : (j 1).val < 1024 := lt_of_lt_of_le hj1 (by unfold chans; split <;> omega)
  exact (congrArg (k0_pay3 A X2) (eq_ix2 _)).trans
    (out_last m c t.val ht A hA X2 h2 ⟨(j 0).val, hj0⟩ ⟨(j 1).val, hq⟩ ((chans_iff t.val _ hq).mp hj1))

/-! ## The body's obligation at a point -/

theorem leaves0 (c : Dev nD) (t : Fin cfg0.N) :
    (dats m 0 c).leaves 0 t = owns (c : Thread nD τ) (st0_0 t) fullShare (iblk m c 0 t) := by
  unfold Dat.leaves; rw [live0 t, after0_0]
theorem leaves1 (c : Dev nD) (t : Fin cfg0.N) :
    (dats m 0 c).leaves 1 t = iprop(∃ d, owns (c : Thread nD τ) (st0_1 t) fullShare
      ((cfg0.win 1).fill (cfg0.grid.coords t) d ((cfg0.win 1).cut (cfg0.grid.coords t) ((dats m 0 c).after 1 t)))) := by
  unfold Dat.leaves; rw [live1 t]
theorem leaves2 (c : Dev nD) (t : Fin cfg0.N) :
    (dats m 0 c).leaves 2 t = iprop(∃ d, owns (c : Thread nD τ) (st0_2 t) fullShare
      ((cfg0.win 2).fill (cfg0.grid.coords t) d ((cfg0.win 2).cut (cfg0.grid.coords t) ((dats m 0 c).after 2 t)))) := by
  unfold Dat.leaves; rw [live2 t]
theorem leaves3_last (c : Dev nD) (t : Fin cfg0.N) (h3 : t.val % 4 = 3) :
    (dats m 0 c).leaves 3 t = iprop(∃ d, owns (c : Thread nD τ) (st0_3 t) fullShare
      ((cfg0.win 3).fill (cfg0.grid.coords t) d ((cfg0.win 3).cut (cfg0.grid.coords t) ((dats m 0 c).after 3 t)))) := by
  unfold Dat.leaves; rw [Bool.eq_false_iff.mpr fun h => (idle3_iff t).mp h h3]
theorem leaves3_idle (c : Dev nD) (t : Fin cfg0.N) (h3 : t.val % 4 ≠ 3) :
    (dats m 0 c).leaves 3 t = iprop(∃ d, owns (c : Thread nD τ) (st0_3 t) fullShare ((dats m 0 c).before 3 t d)) :=
  (dats m 0 c).leaves_idle 3 t ((idle3_iff t).mpr h3) (Bool.eq_false_iff.mpr fun h => h3 ((flush0_3 t).mp h))

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 3200000 in
/-- The body at any point, by the point's residue modulo four: the running sum's specification is carried from the
    point before (or started), the clipped input buffers are handed back as found, and at the last point of a reduction
    the result buffer is right on the channels inside the array. -/
theorem sound_pt (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0]
  rw [leaves0, leaves1, leaves2]
  rw [show (dats m 0 c).owesAt () t.succ = (dats m 0 c).owesAt () t.castSucc from rfl,
    show (dats m 0 c).Φ t.succ = iprop(iprop(∃ acc : Vec Ideal S2048x1024 .f32, ⌜AccOK m c t.val acc⌝ ∗ owns (c : Thread nD τ) scM fullShare acc) ∗ (∃ r, prngReg c r)) from rfl,
    show (dats m 0 c).Φ t.castSucc = PhiS m c t.val from rfl]
  by_cases h0 : t.val % 4 = 0
  · have h3 : t.val % 4 ≠ 3 := by omega
    rw [leaves3_idle m c t h3]
    refine (sep_mono (PhiS_some m c t.val) .rfl).trans ?_
    iintro ⟨⟨⟨%s, HS⟩, Hg⟩, Ho, ⟨%d0, H0⟩, ⟨%d1, H1⟩, ⟨%d2, H2⟩, ⟨%d3, H3⟩⟩
    iapply (body_first (F := Ideal) c Set.univ (grid0.coords t) _ _ _ _ _ _ _ _ scM (Memref.isWhole_whole _)
      ((condFirst_iff t).mpr h0) (fun h => h3 ((condLast_iff t).mp h))
      (iblk m c 0 t) ((dats m 0 c).before 1 t d1) ((dats m 0 c).before 2 t d2) ((dats m 0 c).before 3 t d3) s _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]
      · iexists _; isplitr
        swap; · iexact HS
        ipureintro; exact acc_first m c t.val h0 _ _ (act_ok m c t) (before1_ok m c t d1)
      iexact Hg
    isplitl [Ho]; · iexact Ho
    isplitl [H0]; · iexact H0
    isplitl [H1]
    · iexists ((dats m 0 c).before 1 t d1)
      rw [(cfg0.win 1).fill_congr_cut (cfg0.grid.coords t) (wgt_cut m c t _ (before1_ok m c t d1))]
      iexact H1
    isplitl [H2]
    · iexists ((dats m 0 c).before 2 t d2)
      rw [(cfg0.win 2).fill_congr_cut (cfg0.grid.coords t) (scl_cut m c t _ (before2_ok m c t d2))]
      iexact H2
    iexists d3; iexact H3
  · rw [PhiS_pos m c t.val (fun h => h0 (by rw [h]))]
    by_cases h3 : t.val % 4 = 3
    · rw [leaves3_last m c t h3]
      iintro ⟨⟨⟨%s, %hs, HS⟩, Hg⟩, Ho, ⟨%d0, H0⟩, ⟨%d1, H1⟩, ⟨%d2, H2⟩, ⟨%d3, H3⟩⟩
      iapply (body_last (F := Ideal) c Set.univ (grid0.coords t) _ _ _ _ _ _ _ _ scM (Memref.isWhole_whole _)
        (fun h => h0 ((condFirst_iff t).mp h)) ((condLast_iff t).mpr h3)
        (iblk m c 0 t) ((dats m 0 c).before 1 t d1) ((dats m 0 c).before 2 t d2) ((dats m 0 c).before 3 t d3) s _)
      isplitl [H0]; · iexact H0
      isplitl [H1]; · iexact H1
      isplitl [H2]; · iexact H2
      isplitl [H3]; · iexact H3
      isplitl [HS]; · iexact HS
      iintro ⟨H0, H1, H2, H3, HS⟩
      have hacc : AccOK m c t.val (k0_pay2 s (iblk m c 0 t) ((dats m 0 c).before 1 t d1)) :=
        acc_next m c t.val h0 s hs _ _ (act_ok m c t) (before1_ok m c t d1)
      isplitl [HS Hg]
      · isplitl [HS]
        · iexists _; isplitr
          swap; · iexact HS
          ipureintro; exact hacc
        iexact Hg
      isplitl [Ho]; · iexact Ho
      isplitl [H0]; · iexact H0
      isplitl [H1]
      · iexists ((dats m 0 c).before 1 t d1)
        rw [(cfg0.win 1).fill_congr_cut (cfg0.grid.coords t) (wgt_cut m c t _ (before1_ok m c t d1))]
        iexact H1
      isplitl [H2]
      · iexists ((dats m 0 c).before 2 t d2)
        rw [(cfg0.win 2).fill_congr_cut (cfg0.grid.coords t) (scl_cut m c t _ (before2_ok m c t d2))]
        iexact H2
      iexists (k0_pay3 (k0_pay2 s (iblk m c 0 t) ((dats m 0 c).before 1 t d1)) ((dats m 0 c).before 2 t d2))
      rw [(cfg0.win 3).fill_congr_cut (cfg0.grid.coords t) (out_cut m c t h3 _ hacc _ (before2_ok m c t d2))]
      iexact H3
    · rw [leaves3_idle m c t h3]
      iintro ⟨⟨⟨%s, %hs, HS⟩, Hg⟩, Ho, ⟨%d0, H0⟩, ⟨%d1, H1⟩, ⟨%d2, H2⟩, ⟨%d3, H3⟩⟩
      iapply (body_mid (F := Ideal) c Set.univ (grid0.coords t) _ _ _ _ _ _ _ _ scM (Memref.isWhole_whole _)
        (fun h => h0 ((condFirst_iff t).mp h)) (fun h => h3 ((condLast_iff t).mp h))
        (iblk m c 0 t) ((dats m 0 c).before 1 t d1) ((dats m 0 c).before 2 t d2) ((dats m 0 c).before 3 t d3) s _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · iexists _; isplitr
          swap; · iexact HS
          ipureintro; exact acc_next m c t.val h0 s hs _ _ (act_ok m c t) (before1_ok m c t d1)
        iexact Hg
      isplitl [Ho]; · iexact Ho
      isplitl [H0]; · iexact H0
      isplitl [H1]
      · iexists ((dats m 0 c).before 1 t d1)
        rw [(cfg0.win 1).fill_congr_cut (cfg0.grid.coords t) (wgt_cut m c t _ (before1_ok m c t d1))]
        iexact H1
      isplitl [H2]
      · iexists ((dats m 0 c).before 2 t d2)
        rw [(cfg0.win 2).fill_congr_cut (cfg0.grid.coords t) (scl_cut m c t _ (before2_ok m c t d2))]
        iexact H2
      iexists d3; iexact H3

/-- The body obligation, in the form that states a clipped window's buffer on its moved part only. -/
theorem body_obligation (c : Dev nD) :
    BodyObligationLoose (dats m 0 c) (defs₀ (F := Ideal)) Variants.none () Set.univ := fun t => by
  rw [bigSep_W0, bigSep_W0]
  exact sound_pt m c t

end Cert.KernelIdeal.Hand

end
-- ==== Proof.IRun.lean ====
/-
  The idealized kernel's run and what the result array holds after it.

  The result window's blocks are written back after the last point of each reduction; block (row-block, channel-block)
  covers rows 2048·row-block … and the channels of that channel block that lie inside the array, and these blocks
  together cover the whole 8192 × 11008 array. Each written-back block is the corresponding block of one function: entry
  (M, o) is the dot product of activation row M with weight row o over all 4096 reduction indices, in four blocks, times
  the scale of channel o.
-/
import proofs.«163397_j63445256896863_1_alg».proof.Proof.IData
import Idealize.ShloMosaic.Lib.StableHlo.Run

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The run -/

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl, PhiA_eq]
  exact PhiS_some m c _

set_option backward.isDefEq.respectTransparency.types false in
/-- Every weakly fair execution terminates without a fault; every window's array ends at what the write-backs leave, and
    every other unscoped buffer at what the host operation after the region leaves. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-! ## The result array -/

/-- The result: entry (M, o) is the dot product of activation row M with weight row o, times the scale of channel o. -/
def Gout (c : Dev nD) : S8192x11008.Idx → EReal :=
  fun i => partialDot (xN m c) (wN m c) (i 0).val (i 1).val 3 * sN m c (i 1).val

/-- What the point after a reduction's last step writes back is its block of the result. -/
theorem flushed3_eq (c : Dev nD) (t : Fin cfg0.N) :
    (dats m 0 c).flushed 3 t = ((cfg0.win 3).blk t).view.read (Elt Ideal) (Gout m c) := by
  show (cfg0.win 3).cut (grid0.coords t) ((dats m 0 c).after 3 t) = _
  rw [after0_3]
  funext j
  obtain ⟨-, -, -, -, -, -, e6, e7⟩ := idx_facts t
  show outBlk m c t.val ((cfg0.win 3).xinj (grid0.coords t) j) = Gout m c (((cfg0.win 3).blk t).view.emb j)
  have h0 : ((((cfg0.win 3).blk t).view.emb j) 0).val = 2048 * (t.val / 44) + (j 0).val := by
    show win0_3.index t (0 : Fin 2) * 2048 + 1 * (j 0).val = _; omega
  have h1 : ((((cfg0.win 3).blk t).view.emb j) 1).val = 1024 * (t.val / 4 % 11) + (j 1).val := by
    show win0_3.index t (1 : Fin 2) * 1024 + 1 * (j 1).val = _; omega
  unfold outBlk Gout
  rw [h0, h1]

/-- An index of the result array is in point t's block iff each coordinate is in the block's range inside the array. -/
theorem mem_blk3 (t : Fin cfg0.N) (i : S8192x11008.Idx) :
    i ∈ ((cfg0.win 3).blk t).view.set ↔ ∀ a : Fin 2, win0_3.index t a * S2048x1024.size a ≤ (i a).val
      ∧ (i a).val < win0_3.index t a * S2048x1024.size a + win0_3.xsize (grid0.coords t) a := by
  show i ∈ ((View.whole main_v4).slice (win0_3.rect t)).set ↔ _
  rw [View.set_slice_whole, Rect.mem_set_unit]
  exact Iff.rfl

/-- Every index of the result array is in the block some last point of a reduction writes back. -/
theorem cover3 (i : S8192x11008.Idx) :
    ∃ t : Fin cfg0.N, (cfg0.win 3).flush t = true ∧ i ∈ ((cfg0.win 3).blk t).view.set := by
  have hM : (i 0).val < 8192 := (i 0).isLt
  have ho : (i 1).val < 11008 := (i 1).isLt
  have hN : cfg0.N = 176 := N_0
  let t : Fin cfg0.N := ⟨44 * ((i 0).val / 2048) + 4 * ((i 1).val / 1024) + 3, by rw [hN]; omega⟩
  have ht : t.val = 44 * ((i 0).val / 2048) + 4 * ((i 1).val / 1024) + 3 := rfl
  refine ⟨t, (flush0_3 t).mpr (by rw [ht]; omega), ?_⟩
  rw [mem_blk3]
  obtain ⟨-, -, -, -, -, -, e6, e7⟩ := idx_facts t
  obtain ⟨-, -, -, -, x4, x5⟩ := xsize_facts t
  intro a
  match a with
  | ⟨0, _⟩ =>
    show win0_3.index t (0 : Fin 2) * 2048 ≤ (i 0).val ∧ (i 0).val < win0_3.index t (0 : Fin 2) * 2048 + win0_3.xsize (grid0.coords t) (0 : Fin 2)
    rw [e6, x4, ht]; omega
  | ⟨1, _⟩ =>
    show win0_3.index t (1 : Fin 2) * 1024 ≤ (i 1).val ∧ (i 1).val < win0_3.index t (1 : Fin 2) * 1024 + win0_3.xsize (grid0.coords t) (1 : Fin 2)
    rw [e7, x5, ht]; unfold chans; split <;> omega

/-- The result array after the run. -/
theorem final3 (c : Dev nD) : (dats m 0 c).arrAt 3 cfg0.N = Gout m c :=
  (dats m 0 c).arrAt_eq_of_cover 3 (Gout m c) (fun t _ => flushed3_eq m c t) cover3

/-- The program's result: the host operation after the region reads the result array under its three-axis shape. -/
theorem tail_v5 (c : Dev nD) :
    @Eq (S4x2048x11008.Idx → EReal) (Pipeline.afterTail₀ cfgs (dats m) 0 (V0 m) [hostOps1] c main_v5)
      (shapeCast S4x2048x11008 (Gout m c) shapeCasts_S8192x11008_S4x2048x11008) := by
  have e : Pipeline.withArrays (cfgs 0).spec c (V0 m c) (fun w => (dats m 0 c).arrAt w (cfgs 0).N) (Proc.devRef .tc main_v4)
      = Gout m c :=
    (Pipeline.withArrays_arr spec0 launch0.win.arr_inj c (V0 m c) (fun w => (dats m 0 c).arrAt w cfg0.N) 3).trans (final3 m c)
  unfold Pipeline.afterTail₀
  show StableHlo.after hostOps1 _ (Proc.devRef .tc main_v5) = _
  after_results
  rw [e]
  rfl

/-- The idealized kernel's run: the result is the reshaped result array, and the arguments end as launched. -/
theorem run_value : θ_run defs (onTc (τ := τ) (main (F := Ideal))) ⟨m, fun _ => 0, ρ⟩ (fun r => ∀ c : Dev nD,
      @Eq (S4x2048x11008.Idx → EReal) (r.2.mem ((c.tc : Thread nD τ).loc main_v5))
        (shapeCast S4x2048x11008 (Gout m c) shapeCasts_S8192x11008_S4x2048x11008)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-- The idealized kernel's frame. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.KernelIdeal.Hand

end
-- ==== Proof.IHost.lean ====
/-
  The arrays the region finds, in terms of the program's arguments.

  Before the region the activations are laid out as 8192 rows (row 2048·b + s is row s of batch b; the change of float
  format is the identity on extended reals), the integer weights are converted to their values as real numbers, and the
  scales become a one-row table.
-/
import proofs.«163397_j63445256896863_1_alg».proof.Proof.IBlocks
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- Activation row 2048·b + s at reduction index k is the argument's entry (b, s, k). -/
theorem xN_eq (c : Dev nD) (b : Fin 4) (s : Fin 2048) (k : Fin 4096) :
    xN m c (2048 * b.val + s.val) k.val
      = (m ((c : Thread nD τ).loc main_arg0) : S4x2048x4096.Idx → EReal) (ix3 b s k) := by
  have hb := b.isLt; have hs := s.isLt
  have e : @Eq (S8192x4096.Idx → EReal) (V m c main_v1)
      (truncf (F := Ideal) .bf16 (shapeCast S8192x4096 (m ((c : Thread nD τ).loc main_arg0) : S4x2048x4096.Idx → EReal)
        shapeCasts_S4x2048x4096_S8192x4096) bitsLt_bf16_f32) := by
    show StableHlo.after hostOps0 (fun b => m (c, b)) (Proc.devRef .tc main_v1) = _
    after_results; rfl
  unfold xN
  rw [dif_pos ⟨by omega, k.isLt⟩, e, truncf_apply]
  exact shapeCast_apply _ _ _ (ix3 b s k) (by
    rw [Shape.rowMajor_val_three, Shape.rowMajor_val_two]
    show (b.val * 2048 + s.val) * 4096 + k.val = (2048 * b.val + s.val) * 4096 + k.val
    omega)

/-- Weight (o, k) is the integer argument's entry (o, k), read signed, as a real number. -/
theorem wN_eq (c : Dev nD) (o : Fin 11008) (k : Fin 4096) :
    wN m c o.val k.val
      = (((m ((c : Thread nD τ).loc main_arg1) : S11008x4096.Idx → BitVec 32) (ix2 o k)).toInt : ℝ) := by
  have e : @Eq (S11008x4096.Idx → EReal) (V m c main_v2)
      (sitofp (F := Ideal) .bf16 (m ((c : Thread nD τ).loc main_arg1) : S11008x4096.Idx → BitVec 32)) := by
    show StableHlo.after hostOps0 (fun b => m (c, b)) (Proc.devRef .tc main_v2) = _
    after_results
  unfold wN
  rw [dif_pos ⟨o.isLt, k.isLt⟩, e]
  rfl

/-- The scale of channel o is the argument's entry o. -/
theorem sN_eq (c : Dev nD) (o : Fin 11008) :
    sN m c o.val = (m ((c : Thread nD τ).loc main_arg2) : S11008.Idx → EReal) (ix1 o) := by
  have e : @Eq (S1x11008.Idx → EReal) (V m c main_v3)
      (shapeCast S1x11008 (m ((c : Thread nD τ).loc main_arg2) : S11008.Idx → EReal) shapeCasts_S11008_S1x11008) := by
    show StableHlo.after hostOps0 (fun b => m (c, b)) (Proc.devRef .tc main_v3) = _
    after_results; rfl
  unfold sN
  rw [dif_pos o.isLt, e]
  exact shapeCast_apply _ _ _ (ix1 o) (by
    rw [Shape.rowMajor_val_one, Shape.rowMajor_val_two]
    show o.val = 0 * 11008 + o.val
    omega)

end Cert.KernelIdeal.Hand

end
-- ==== Proof.IValue.lean ====
/-
  The kernel's result is the reference's result, entry by entry.

  The reference forms, at (b, s, o), the sum over the 4096 reduction indices of activation (b, s, k) times the integer
  weight (o, k) read as a real number, and multiplies by the scale of channel o. The kernel's result at (b, s, o) is its
  result array at row 2048·b + s: the same sum taken in four blocks of 1024, times the same scale. Regrouping a finite
  sum of extended reals does not change it.
-/
import proofs.«163397_j63445256896863_1_alg».proof.Proof.IRun
import proofs.«163397_j63445256896863_1_alg».proof.Proof.IHost
import proofs.«163397_j63445256896863_1_alg».proof.Proof.Gen.ReferenceIdeal.Read

set_option maxRecDepth 16384

noncomputable section

namespace Cert.KernelIdeal.Hand

open Cert.KernelIdeal Cert.KernelIdeal.Gen Cert.KernelIdeal.Spec
open Idealize.ShloMosaic Idealize.ShloMosaic.TcCoe Idealize.ShloMosaic.ValueIdx
open Idealize.SL Idealize.SL.Sem

variable (m : (ℓ : Loc nD τ sig) → Buf (Elt Ideal) ℓ)

/-- The kernel's result, as a function of the three argument arrays, is the reference's. -/
theorem value_eq (c : Dev nD) :
    @Eq (S4x2048x11008.Idx → EReal)
      (shapeCast S4x2048x11008 (Gout m c) shapeCasts_S8192x11008_S4x2048x11008)
      (Cert.ReferenceIdeal.Read.val_main_v4 (F := Ideal)
        (m ((c.tc : Thread nD τ).loc main_arg0)) (m ((c.tc : Thread nD τ).loc main_arg1)) (m ((c.tc : Thread nD τ).loc main_arg2))) := by
  funext i
  obtain ⟨b, s, o, rfl⟩ : ∃ (b : Fin 4) (s : Fin 2048) (o : Fin 11008), i = ix3 b s o := ⟨i 0, i 1, i 2, eq_ix3 i⟩
  have hb := b.isLt; have hs := s.isLt
  have el : ∀ k : Fin 4096, Cert.ReferenceIdeal.Read.lidx_main_v1 (ix3 b s o) k = ix3 b s k := fun k =>
    funext fun a => Fin.ext (by match a with | ⟨0, _⟩ => rfl | ⟨1, _⟩ => rfl | ⟨2, _⟩ => rfl)
  have er : ∀ k : Fin 4096, Cert.ReferenceIdeal.Read.ridx_main_v1 (ix3 b s o) k = ix2 o k := fun k =>
    funext fun a => Fin.ext (by match a with | ⟨0, _⟩ => rfl | ⟨1, _⟩ => rfl)
  have es : Cert.ReferenceIdeal.Read.idx_main_v2 (Cert.ReferenceIdeal.Read.idx_main_v3 (ix3 b s o)) = ix1 o :=
    funext fun a => Fin.ext (by match a with | ⟨0, _⟩ => rfl)
  rw [Cert.ReferenceIdeal.Read.val_main_v4_apply, Cert.ReferenceIdeal.Read.val_main_v1_apply,
    Cert.ReferenceIdeal.Read.val_main_v3_apply, Cert.ReferenceIdeal.Read.val_main_v2_apply, es]
  rw [shapeCast_apply (Gout m c) shapeCasts_S8192x11008_S4x2048x11008 (ix3 b s o)
    (ix2 (⟨2048 * b.val + s.val, by omega⟩ : Fin 8192) o) (by
      rw [Shape.rowMajor_val_two, Shape.rowMajor_val_three]
      show (2048 * b.val + s.val) * 11008 + o.val = (b.val * 2048 + s.val) * 11008 + o.val
      omega)]
  show partialDot (xN m c) (wN m c) (2048 * b.val + s.val) o.val 3 * sN m c o.val = _
  rw [partialDot_three, sN_eq m c o]
  refine congrArg (· * _) (Finset.sum_congr rfl fun k _ => ?_)
  rw [xN_eq m c b s k, wN_eq m c o k, el k, er k, Cert.ReferenceIdeal.Read.val_main_v0_apply]
  rfl

end Cert.KernelIdeal.Hand

end
-- ==== Proof.lean ====
/-
  The certificate of a weight-only quantized linear layer: out[b, s, o] = (Σᵢ x[b, s, i] · w[o, i]) · scale[o], with integer
  weights w, float activations x and one float scale per output channel.

  The kernel lays the activations out as 8192 rows and tiles the product over a 4 × 11 × 4 grid: 2048 rows by 1024
  channels by 1024 reduction indices per point. A scratch buffer carries the running sum along the reduction axis: it is
  cleared at the first reduction step, gains one block product per step, and at the last step is multiplied by the
  channels' scales into the result block. The 11008 channels are not a multiple of 1024, so the last channel block
  overhangs the arrays; what the weight and scale buffers hold past the arrays' end is arbitrary, enters only the
  running sum's columns past the end, and is never written back.

  Over the extended reals the change of float format is the identity and an integer converts to its value, so both
  programs compute the same sum, the kernel in four blocks of 1024 terms and the reference in one sum of 4096; addition
  of extended reals is associative and commutative, so the two agree, with no use of the inputs' finiteness.

  The word-level kernel's frame needs none of this: every buffer is handed to the body and taken back at arbitrary
  contents. The idealized kernel's frame and value come from one run, with the buffers' contents named on the channels
  inside the arrays; the reference's from its run read one operation at a time.
-/
import proofs.«163397_j63445256896863_1_alg».proof.Defs
import proofs.«163397_j63445256896863_1_alg».proof.Proof.Gen.Kernel
import proofs.«163397_j63445256896863_1_alg».proof.Proof.Gen.KernelIdeal
import proofs.«163397_j63445256896863_1_alg».proof.Proof.Gen.ReferenceIdeal
import proofs.«163397_j63445256896863_1_alg».proof.Proof.Gen.Pre_finite_inputs
import proofs.«163397_j63445256896863_1_alg».proof.Proof.Gen.ReferenceIdeal.Run
import proofs.«163397_j63445256896863_1_alg».proof.Proof.Gen.ReferenceIdeal.Read
import proofs.«163397_j63445256896863_1_alg».proof.Proof.KFrame
import proofs.«163397_j63445256896863_1_alg».proof.Proof.IValue
import Idealize.ShloMosaic.Adequacy
import Idealize.ShloMosaic.Init

noncomputable section

namespace Cert.Proof

open Idealize.ShloMosaic Idealize.SL.Sem

/-- The word-level kernel runs to the end without a fault and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the kernel's reshaped result
    array is the reference's product, entry by entry. -/
theorem algebraic : Cert.algebraic_KernelIdeal_ReferenceIdeal := by
  intro m ρ m' ρ' _ hagree
  refine ⟨fun c => shapeCast Cert.KernelIdeal.S4x2048x11008 (Cert.KernelIdeal.Hand.Gout m c)
      Cert.KernelIdeal.Facts₀.shapeCasts_S8192x11008_S4x2048x11008,
    (θ_run Cert.KernelIdeal.defs _ _).mono (fun _ h c => h c) (Cert.KernelIdeal.Hand.run_value m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2.1, (hagree c).2.2]
  exact (Cert.KernelIdeal.Hand.value_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
